-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x50 : Shape := ⟨2, ![4096, 50]⟩
abbrev S100x1x2048 : Shape := ⟨3, ![100, 1, 2048]⟩
abbrev S204800x256 : Shape := ⟨2, ![204800, 256]⟩
abbrev S1x1x2048 : Shape := ⟨3, ![1, 1, 2048]⟩
abbrev S2048x256 : Shape := ⟨2, ![2048, 256]⟩
abbrev S2048 : Shape := ⟨1, ![2048]⟩
abbrev S2048x1 : Shape := ⟨2, ![2048, 1]⟩
abbrev S4096x50x256 : Shape := ⟨3, ![4096, 50, 256]⟩

abbrev nBuf : Space → Nat
  | .hbm => 4
  | .vmem => 4
  | .smem => 0
  | _ => 0

abbrev bufTy : (tb : Table) → Fin (tcTables nBuf tb) → BufTy
  | .hbm, ⟨0, _⟩ => ⟨S4096x50, .i32⟩
  | .hbm, ⟨1, _⟩ => ⟨S100x1x2048, .i32⟩
  | .hbm, ⟨2, _⟩ => ⟨S204800x256, .f32⟩
  | .hbm, ⟨3, _⟩ => ⟨S4096x50x256, .f32⟩
  | .local _ .vmem, ⟨0, _⟩ => ⟨S1x1x2048, .i32⟩
  | .local _ .vmem, ⟨1, _⟩ => ⟨S1x1x2048, .i32⟩
  | .local _ .vmem, ⟨2, _⟩ => ⟨S2048x256, .f32⟩
  | .local _ .vmem, ⟨3, _⟩ => ⟨S2048x256, .f32⟩
  | _, _ => ⟨S4096x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4096x50_S100x1x2048 : S4096x50.ShapeCasts S100x1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  iota_S2048x256_d1_w32 : S2048x256.Iotas .tc 32 [1]
  shapeCasts_S2048_S2048x1 : S2048.ShapeCasts S2048x1
  broadcasts_S2048x1_S2048x256 : S2048x1.Broadcasts S2048x256
  natLt_1_32 : 1 < 32
  inb_S2048x256_S2048x256_0_0 : ∀ a, (![0, 0] : Fin 2 → Nat) a + S2048x256.size a ≤ S2048x256.size a
  h_S2048x256 : 0 < S2048x256.numel
  shapeCasts_S204800x256_S4096x50x256 : S204800x256.ShapeCasts S4096x50x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S100x1x2048.size a
  hwx0_0 : ∀ i : grid0.Coords, EltTy.bits .i32 = 32 ∨ (Rect.block (s := S100x1x2048) S1x1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S204800x256.size a
  hwx0_1 : ∀ i : grid0.Coords, EltTy.bits .f32 = 32 ∨ (Rect.block (s := S204800x256) S2048x256.size (cc0_transform_1 i) (hinb0_1 i)).WholeWords (EltTy.packing .f32)

variable [Facts₀]

abbrev win0_0 : Pipeline.Window sig grid0 :=
  Pipeline.Window.ofSpec (Memref.whole main_v0) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x50 : Shape := ⟨2, ![4096, 50]⟩
abbrev S4096x50x1 : Shape := ⟨3, ![4096, 50, 1]⟩
abbrev S1x1x256 : Shape := ⟨3, ![1, 1, 256]⟩
abbrev S4096x50x256 : Shape := ⟨3, ![4096, 50, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50x1, .i32⟩
  | .hbm, ⟨2, _⟩ => ⟨S1x1x256, .i32⟩
  | .hbm, ⟨3, _⟩ => ⟨S4096x50x256, .i32⟩
  | .hbm, ⟨4, _⟩ => ⟨S4096x50x256, .i32⟩
  | .hbm, ⟨5, _⟩ => ⟨S4096x50x256, .i1⟩
  | .hbm, ⟨6, _⟩ => ⟨S4096x50x256, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]

class Facts₀ : Prop where
  bcast_S4096x50_S4096x50x1_0_1 : S4096x50.BroadcastsInDim S4096x50x1 (![0, 1] : Fin 2 → Fin S4096x50x1.rank)
  bcast_S4096x50x1_S4096x50x256_0_1_2 : S4096x50x1.BroadcastsInDim S4096x50x256 (![0, 1, 2] : Fin 3 → Fin S4096x50x256.rank)
  bcast_S1x1x256_S4096x50x256_0_1_2 : S1x1x256.BroadcastsInDim S4096x50x256 (![0, 1, 2] : Fin 3 → Fin S4096x50x256.rank)

variable [Facts₀]

class Facts : Prop extends Facts₀ where

variable [Facts]
-- ==== Proof.OneHot.lean ====
/-
  The one-hot encoding of a [4096, 50] array of 32-bit words over 256 classes, as a function: the entry
  (a, b, k) is 1 when the word at (a, b) is the number k and 0 otherwise.  Both programs compute the
  indicator from the comparison's bit; one widens the bit to 32 bits and converts it as a signed
  integer, the other converts the bit as an unsigned integer.  A bit is 0 or 1 and widening by zeros
  keeps it nonnegative, so on the extended reals both conversions give the same number (`hot_ideal`).

  One program works on the 204800 = 4096 * 50 words listed row-major, arranged as 100 groups of 2048,
  and writes a [204800, 256] array that is then re-read as [4096, 50, 256].  Row r = 50 a + b of the
  flat array is the encoding of the word at (a, b): the row-major position of (a, b) in [4096, 50] and
  of (r / 2048, 0, r % 2048) in [100, 1, 2048] are both r (`encodeRows_reshape`).
-/
import Idealize.ShloMosaic.PureOps.Ideal
import Idealize.ShloMosaic.Lib.ValueIdx
import Idealize.ShloMosaic.Lib.Pipeline.Value

noncomputable section

namespace Cert.OneHot

open Idealize.ShloMosaic Idealize.ShloMosaic.ValueIdx

variable {F : FTy → Type} [FloatOps F]

/-- The indicator "the word `w` is the class number `k`" as a float: the comparison's bit, widened by
    zeros to 32 bits and converted as a signed integer. -/
def hot (w : BitVec 32) (k : Nat) : F .f32 :=
  FloatOps.sitofp .f32 ((IntOp.cmpi .eq w (BitVec.ofNat 32 k)).setWidth 32)

/-- A bit widened by zeros and read as a signed integer is the bit read as a natural number. -/
theorem toInt_setWidth_bit (b : BitVec 1) : ((b.setWidth 32).toInt : ℤ) = (b.toNat : ℤ) := by
  revert b; decide

/-- On the extended reals the indicator is the bit converted as an unsigned integer. -/
theorem hot_ideal (w : BitVec 32) (k : Nat) :
    hot (F := Ideal) w k = FloatOps.uitofp (F := Ideal) .f32 (IntOp.cmpi .eq w (BitVec.ofNat 32 k)) := by
  show (((((IntOp.cmpi .eq w (BitVec.ofNat 32 k)).setWidth 32).toInt : ℤ) : ℝ) : EReal)
    = ((((IntOp.cmpi .eq w (BitVec.ofNat 32 k)).toNat : ℕ) : ℝ) : EReal)
  rw [toInt_setWidth_bit]
  simp

/-- The encoding: entry (a, b, k) is the indicator of "the word at (a, b) is k". -/
def encode (x : (⟨2, ![4096, 50]⟩ : Shape).Idx → BitVec 32) : (⟨3, ![4096, 50, 256]⟩ : Shape).Idx → F .f32 :=
  fun i => hot (x (ix2 (i 0) (i 1))) (i 2).val

/-- Word number `r` of the row-major list, as a position of the [100, 1, 2048] arrangement: group
    `r / 2048`, place `r % 2048`. -/
abbrev groupIdx (r : Fin 204800) : (⟨3, ![100, 1, 2048]⟩ : Shape).Idx :=
  ix3 ⟨r.val / 2048, by have := r.isLt; omega⟩ ⟨0, Nat.one_pos⟩ ⟨r.val % 2048, Nat.mod_lt _ (by decide)⟩

/-- The encoding of the grouped words, one row per word: entry (r, k) is the indicator of "word
    number `r` is k". -/
def encodeRows (z : (⟨3, ![100, 1, 2048]⟩ : Shape).Idx → BitVec 32) : (⟨2, ![204800, 256]⟩ : Shape).Idx → F .f32 :=
  fun i => hot (z (groupIdx (i 0))) (i 1).val

/-- Grouping the words of `x`, encoding them row by row and re-reading the [204800, 256] rows as
    [4096, 50, 256] is the encoding of `x`: both re-readings keep the row-major position. -/
theorem encodeRows_reshape (x : (⟨2, ![4096, 50]⟩ : Shape).Idx → BitVec 32)
    (h1 : (⟨2, ![4096, 50]⟩ : Shape).ShapeCasts ⟨3, ![100, 1, 2048]⟩)
    (h2 : (⟨2, ![204800, 256]⟩ : Shape).ShapeCasts ⟨3, ![4096, 50, 256]⟩) :
    shapeCast ⟨3, ![4096, 50, 256]⟩ (encodeRows (F := F) (shapeCast ⟨3, ![100, 1, 2048]⟩ x h1)) h2 = encode x := by
  funext j
  have l0 : (j 0).val < 4096 := (j 0).isLt
  have l1 : (j 1).val < 50 := (j 1).isLt
  have l2 : (j 2).val < 256 := (j 2).isLt
  rw [shapeCast_apply _ h2 j (ix2 (⟨(j 0).val * 50 + (j 1).val, by omega⟩ : Fin 204800) (j 2)) (by
    rw [Shape.rowMajor_val_two, Shape.rowMajor_val_three]
    show ((j 0).val * 50 + (j 1).val) * 256 + (j 2).val = ((j 0).val * 50 + (j 1).val) * 256 + (j 2).val
    rfl)]
  show hot (shapeCast ⟨3, ![100, 1, 2048]⟩ x h1 (groupIdx ⟨(j 0).val * 50 + (j 1).val, by omega⟩)) (j 2).val
    = hot (x (ix2 (j 0) (j 1))) (j 2).val
  rw [shapeCast_apply x h1 _ (ix2 (j 0) (j 1)) (by
    rw [Shape.rowMajor_val_two, Shape.rowMajor_val_three]
    show (j 0).val * 50 + (j 1).val
      = (((j 0).val * 50 + (j 1).val) / 2048 * 1 + 0) * 2048 + ((j 0).val * 50 + (j 1).val) % 2048
    omega)]

end Cert.OneHot

end
-- ==== Proof.BlockEntry.lean ====
/-
  What the kernel body stores, entry by entry.  The body loads a [1, 1, 2048] block of words, lists it as
  a column [2048, 1], repeats the column along 256 lanes, compares with the lane number and converts the
  comparison's bit to a float.  So the stored [2048, 256] block has, at (p, q), the indicator of "word p
  of the block is q": the layout steps only move word p to every lane of row p, and the lane counter at
  (p, q) is q.
-/
import proofs.«156989_g36386962932021_cont_8to1_b_175_3_alg».proof.Proof.Gen.KernelIdeal.Skeleton
import proofs.«156989_g36386962932021_cont_8to1_b_175_3_alg».proof.Proof.OneHot
import Idealize.ShloMosaic.Lib.ValueIdx
import Idealize.ShloMosaic.Lib.Pipeline.Value

noncomputable section

namespace Cert.KernelIdeal.OneHotValue

open Cert.KernelIdeal Cert.KernelIdeal.Gen Idealize.ShloMosaic Idealize.ShloMosaic.ValueIdx Cert.OneHot

variable {F : FTy → Type} [FloatOps F]

/-- Entry (p, q) of the stored block is the indicator of "word p of the loaded block is q". -/
theorem stored_apply (x0 : Vec F S1x1x2048 .i32) (p : Fin 2048) (q : Fin 256) :
    k0_pay1 x0 (ix2 p q) = hot (x0 (ix3 ⟨0, Nat.one_pos⟩ ⟨0, Nat.one_pos⟩ p)) q.val := by
  unfold k0_pay1 hot
  show FloatOps.sitofp .f32 ((IntOp.cmpi .eq
      (broadcastTo S2048x256 (shapeCast S2048x1 (shapeCast S2048 x0 shapeCasts_S1x1x2048_S2048) shapeCasts_S2048_S2048x1)
        broadcasts_S2048x1_S2048x256 (ix2 p q))
      (iota .tc S2048x256 32 [1] iota_S2048x256_d1_w32 (ix2 p q))).setWidth 32) = _
  rw [iota_single_apply,
    broadcastTo_apply _ broadcasts_S2048x1_S2048x256 (ix2 p q) (ix2 p (⟨0, Nat.one_pos⟩ : Fin 1)) (fun a => match a with
      | ⟨0, _⟩ => by show p.val = if (2048 : Nat) = 1 then 0 else p.val; rw [if_neg (by decide)]
      | ⟨1, _⟩ => by show 0 = if (1 : Nat) = 1 then 0 else q.val; rw [if_pos rfl]),
    shapeCast_apply _ shapeCasts_S2048_S2048x1 (ix2 p (⟨0, Nat.one_pos⟩ : Fin 1)) (ix1 p) (by
      rw [Shape.rowMajor_val_one, Shape.rowMajor_val_two]
      show p.val = p.val * 1 + 0
      omega),
    shapeCast_apply x0 shapeCasts_S1x1x2048_S2048 (ix1 p) (ix3 ⟨0, Nat.one_pos⟩ ⟨0, Nat.one_pos⟩ p) (by
      rw [Shape.rowMajor_val_one, Shape.rowMajor_val_three]
      show (0 * 1 + 0) * 2048 + p.val = p.val
      omega)]

end Cert.KernelIdeal.OneHotValue

end
-- ==== Proof.FlatArray.lean ====
/-
  The [204800, 256] array the kernel's region leaves.  Grid point t loads group t of the grouped words
  (the [1, 1, 2048] block at block number (t, 0, 0)) and writes rows 2048 t ... 2048 t + 2047 of the
  flat array (the [2048, 256] block at block number (t, 0)).  Row 2048 t + p of the flat encoding is
  the encoding of word number 2048 t + p, which is word p of group t — what the body stored in row p
  of its block.  The 100 row blocks tile the 204800 rows: row r lies in the block of point r / 2048.
  So after the region the array is the row-by-row encoding of the grouped words.
-/
import proofs.«156989_g36386962932021_cont_8to1_b_175_3_alg».proof.Proof.Gen.KernelIdeal.Frame
import proofs.«156989_g36386962932021_cont_8to1_b_175_3_alg».proof.Proof.BlockEntry
import Idealize.ShloMosaic.Lib.Pipeline.Value
import Idealize.ShloMosaic.Lib.ValueIdx

set_option maxRecDepth 16384

noncomputable section

namespace Cert.KernelIdeal.OneHotValue

open Cert.KernelIdeal Cert.KernelIdeal.Gen Idealize.ShloMosaic Idealize.ShloMosaic.TcCoe Idealize.SL.Sem
open Idealize.ShloMosaic.ValueIdx Cert.OneHot
open Idealize.ShloMosaic.Pipeline (Dat)

variable {F : FTy → Type} [FloatOps F]
variable (m : (ℓ : Loc nD τ sig) → Buf (Elt F) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block numbers at grid point t: the input's block is (t, 0, 0), the output's (t, 0). -/
theorem block_numbers : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- What grid point t writes back is rows 2048 t ... 2048 t + 2047 of the row-by-row encoding of the
    grouped words as the region finds them. -/
theorem wrote (c : Dev nD) (t : Fin cfg0.N) :
    (dats m 0 c).flushed 1 t = ((cfg0.win 1).blk t).view.read (Elt F) (encodeRows (F := F) (V m c main_v0)) := by
  show (cfg0.win 1).cut (grid0.coords t) ((dats m 0 c).after 1 t) = _
  rw [after0_1]
  unfold out0_1
  rw [View.canon_unit_zero zeros2]
  simp only [View.ld_unit_zero (S := S1x1x2048) zeros3]
  obtain ⟨e0, e1, e2, e3, e4⟩ := block_numbers t
  have ht : t.val < 100 := lt_of_lt_of_eq t.isLt N_0
  funext j
  obtain ⟨p, q, rfl⟩ : ∃ (p : Fin 2048) (q : Fin 256), j = ix2 p q := ⟨j 0, j 1, eq_ix2 j⟩
  have hp : p.val < 2048 := p.isLt
  have hq : q.val < 256 := q.isLt
  show k0_pay1 (iblk m c 0 t) (ix2 p q) = encodeRows (F := F) (V m c main_v0) (((cfg0.win 1).blk t).view.emb (ix2 p q))
  rw [stored_apply (iblk m c 0 t) p q]
  have hO : ((cfg0.win 1).blk t).view.emb (ix2 p q) = ix2 (⟨t.val * 2048 + p.val, by omega⟩ : Fin 204800) q := by
    funext a; apply Fin.ext
    match a with
    | ⟨0, _⟩ => show win0_1.index t (0 : Fin 2) * 2048 + 1 * p.val = t.val * 2048 + p.val; omega
    | ⟨1, _⟩ => show win0_1.index t (1 : Fin 2) * 256 + 1 * q.val = q.val; omega
  have hI : ((cfg0.win 0).blk t).view.emb (ix3 ⟨0, Nat.one_pos⟩ ⟨0, Nat.one_pos⟩ p)
      = groupIdx (⟨t.val * 2048 + p.val, by omega⟩ : Fin 204800) := by
    funext a; apply Fin.ext
    match a with
    | ⟨0, _⟩ => show win0_0.index t (0 : Fin 3) * 1 + 1 * 0 = (t.val * 2048 + p.val) / 2048; omega
    | ⟨1, _⟩ => show win0_0.index t (1 : Fin 3) * 1 + 1 * 0 = 0; omega
    | ⟨2, _⟩ => show win0_0.index t (2 : Fin 3) * 2048 + 1 * p.val = (t.val * 2048 + p.val) % 2048; omega
  rw [hO]
  show hot (V m c main_v0 (((cfg0.win 0).blk t).view.emb (ix3 ⟨0, Nat.one_pos⟩ ⟨0, Nat.one_pos⟩ p))) q.val
    = hot (V m c main_v0 (groupIdx (⟨t.val * 2048 + p.val, by omega⟩ : Fin 204800))) q.val
  rw [hI]

/-- A row of the flat array is in point t's block iff it is one of the block's 2048 rows. -/
theorem mem_rows (t : Fin cfg0.N) (i : S204800x256.Idx) :
    i ∈ ((cfg0.win 1).blk t).view.set ↔ ∀ a : Fin 2, win0_1.index t a * S2048x256.size a ≤ (i a).val
      ∧ (i a).val < win0_1.index t a * S2048x256.size a + S2048x256.size a := by
  show i ∈ ((View.whole main_v1).slice (win0_1.rect t)).set ↔ _
  rw [View.set_slice_whole, Rect.mem_set_unit]
  exact Iff.rfl

/-- Every entry of the flat array is written back by some grid point: row r by point r / 2048. -/
theorem rows_covered (i : S204800x256.Idx) :
    ∃ t : Fin cfg0.N, (cfg0.win 1).flush t = true ∧ i ∈ ((cfg0.win 1).blk t).view.set := by
  have hi0 : (i 0).val < 204800 := (i 0).isLt
  have hi1 : (i 1).val < 256 := (i 1).isLt
  let t : Fin cfg0.N := ⟨(i 0).val / 2048, by rw [show cfg0.N = 100 from N_0]; omega⟩
  obtain ⟨e0, e1, e2, e3, e4⟩ := block_numbers t
  have e3' : win0_1.index t (0 : Fin 2) = (i 0).val / 2048 := e3
  refine ⟨t, flush0_1 t, ?_⟩
  rw [mem_rows]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 256 ≤ (i 1).val ∧ (i 1).val < win0_1.index t (1 : Fin 2) * 256 + 256; omega

/-- After the region the flat array is the row-by-row encoding of the grouped words. -/
theorem flat_array (c : Dev nD) :
    (dats m 0 c).arrAt 1 cfg0.N = encodeRows (F := F) (V m c main_v0) :=
  (dats m 0 c).arrAt_eq_of_cover 1 (encodeRows (F := F) (V m c main_v0)) (fun t _ => wrote m c t) rows_covered

end Cert.KernelIdeal.OneHotValue

end
-- ==== Proof.KernelRun.lean ====
/-
  The kernel's whole run, read as values.  Before the region the argument's [4096, 50] words are re-read
  as [100, 1, 2048] (same row-major order); the region leaves the [204800, 256] array at the row-by-row
  encoding of those grouped words; after the region that array is re-read as [4096, 50, 256].  By the
  re-reading identity of the encoding, the result is the one-hot encoding of the argument, and the
  argument is unchanged.
-/
import proofs.«156989_g36386962932021_cont_8to1_b_175_3_alg».proof.Proof.FlatArray
import Idealize.ShloMosaic.Lib.StableHlo.Run

set_option maxRecDepth 16384

noncomputable section

namespace Cert.KernelIdeal.OneHotValue

open Cert.KernelIdeal Cert.KernelIdeal.Gen Idealize.ShloMosaic Idealize.ShloMosaic.TcCoe Idealize.SL.Sem
open Idealize.ShloMosaic.ValueIdx Idealize.ShloMosaic.StableHlo Cert.OneHot
open Idealize.ShloMosaic.Pipeline (Dat)

variable {F : FTy → Type} [FloatOps F]
variable (m : (ℓ : Loc nD τ sig) → Buf (Elt F) ℓ) (ρ : Dev nD → PrngReg)

/-- The grouped words the region finds are the argument's words re-read as [100, 1, 2048]. -/
theorem grouped (c : Dev nD) :
    (V m c main_v0 : S100x1x2048.Idx → BitVec 32)
      = shapeCast S100x1x2048 (m ((c : Thread nD τ).loc main_arg0)) shapeCasts_S4096x50_S100x1x2048 := by
  show StableHlo.after hostOps0 (fun b => m (c, b)) (Proc.devRef .tc main_v0) = _
  after_results
  rfl

/-- After the run the result array is the one-hot encoding of the argument. -/
theorem result (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_v2) = encode (F := F) (m ((c : Thread nD τ).loc main_arg0)) := by
  rw [(h c).2 main_v2 (Pipeline.mem_restRefs_of main_v2 (by decide) (by decide))]
  unfold Pipeline.afterTail₀
  show StableHlo.after hostOps1 _ (Proc.devRef .tc main_v2) = _
  after_results
  have hA : Pipeline.withArrays (cfgs 0).spec c (V0 m c) (fun w => (dats m 0 c).arrAt w (cfgs 0).N)
      (Proc.devRef .tc main_v1) = encodeRows (F := F) (V m c main_v0) :=
    (Pipeline.withArrays_arr spec0 launch0.win.arr_inj c _ _ 1).trans (flat_array m c)
  show shapeCast S4096x50x256 (Pipeline.withArrays (cfgs 0).spec c (V0 m c) (fun w => (dats m 0 c).arrAt w (cfgs 0).N)
      (Proc.devRef .tc main_v1)) shapeCasts_S204800x256_S4096x50x256 = _
  rw [hA, grouped]
  exact encodeRows_reshape _ _ _

/-- After the run the argument array is as launched. -/
theorem kept (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 (by decide) (by decide))).trans (W_main_arg0 m (dats m) c)

/-- Every weakly fair execution of the kernel's program terminates with the result array at the one-hot
    encoding of the argument and the argument unchanged. -/
theorem run : θ_run defs (onTc (τ := τ) (main (F := F))) ⟨m, fun _ => 0, ρ⟩ fun r => ∀ c : Dev nD,
      r.2.mem ((c : Thread nD τ).loc main_v2) = encode (F := F) (m ((c : Thread nD τ).loc main_arg0))
      ∧ r.2.mem ((c : Thread nD τ).loc main_arg0) = m ((c : Thread nD τ).loc main_arg0) :=
  (θ_run defs _ _).mono (fun r h c => ⟨result m r h c, kept m r h c⟩) (run_main m ρ)

end Cert.KernelIdeal.OneHotValue

end
-- ==== Proof.ReferenceValue.lean ====
/-
  The reference's result, read entry by entry.  It places the word at (a, b) on every class k (two
  repetitions along new axes), places the class counter k at every (a, b), compares the two and converts
  the comparison's bit as an unsigned integer: entry (a, b, k) is the indicator of "the word at (a, b) is
  k" — the one-hot encoding, on the extended reals.
-/
import proofs.«156989_g36386962932021_cont_8to1_b_175_3_alg».proof.Proof.Gen.ReferenceIdeal.Read
import proofs.«156989_g36386962932021_cont_8to1_b_175_3_alg».proof.Proof.OneHot
import Idealize.ShloMosaic.Lib.ValueIdx

noncomputable section

namespace Cert.ReferenceIdeal.RefValue

open Cert.ReferenceIdeal Idealize.ShloMosaic Idealize.ShloMosaic.ValueIdx Cert.OneHot

/-- On the extended reals the reference's result is the one-hot encoding of its argument. -/
theorem result_eq (x : S4096x50.Idx → BitVec 32) :
    Read.val_main_v0 (F := Ideal) x = encode (F := Ideal) x := by
  funext i
  have hi : Read.idx_main_call0_v0 (Read.idx_main_call0_v2 i) = ix2 (i 0) (i 1) :=
    funext fun a => Fin.ext (by match a with | ⟨0, _⟩ => rfl | ⟨1, _⟩ => rfl)
  rw [Read.val_main_v0_apply, Read.val_main_call0_v4_apply, Read.val_main_call0_v2_apply,
    Read.val_main_call0_v0_apply, Read.val_main_call0_v3_apply, Read.val_main_call0_v1_apply, hi]
  show _ = hot (F := Ideal) (x (ix2 (i 0) (i 1))) (i 2).val
  rw [hot_ideal]
  rfl

end Cert.ReferenceIdeal.RefValue

end
-- ==== Proof.lean ====
/-
  One-hot encoding of a [4096, 50] array of 32-bit words over 256 classes: the kernel against the
  reference, on the extended reals.

  The reference compares the word at (a, b), repeated over the classes, with the class counter and
  converts the comparison's bit as an unsigned integer: entry (a, b, k) is the indicator of "the word at
  (a, b) is k".  The kernel lists the 204800 words row-major in 100 groups of 2048; grid point t loads
  group t, compares each word with the lane counter 0 ... 255, widens the bit by zeros to 32 bits and
  converts it as a signed integer, and writes rows 2048 t ... 2048 t + 2047 of a [204800, 256] array,
  which is finally re-read as [4096, 50, 256].  A zero-widened bit is nonnegative, so both conversions
  give the same 0 or 1; row 50 a + b of the flat array is the encoding of the word at (a, b), because
  both re-readings keep the row-major order; and the 100 row blocks tile the array.  So both programs
  end at the same array, the encoding of the common argument.

  The two programs have no float input and no float constant, so nothing about finiteness is used, and
  the idealization rewrote no operation.
-/
import proofs.«156989_g36386962932021_cont_8to1_b_175_3_alg».proof.Defs
import proofs.«156989_g36386962932021_cont_8to1_b_175_3_alg».proof.Proof.Gen.Kernel
import proofs.«156989_g36386962932021_cont_8to1_b_175_3_alg».proof.Proof.Gen.Kernel.Skeleton
import proofs.«156989_g36386962932021_cont_8to1_b_175_3_alg».proof.Proof.Gen.Kernel.Launch
import proofs.«156989_g36386962932021_cont_8to1_b_175_3_alg».proof.Proof.Gen.Kernel.Points
import proofs.«156989_g36386962932021_cont_8to1_b_175_3_alg».proof.Proof.Gen.Kernel.Frame
import proofs.«156989_g36386962932021_cont_8to1_b_175_3_alg».proof.Proof.Gen.KernelIdeal
import proofs.«156989_g36386962932021_cont_8to1_b_175_3_alg».proof.Proof.Gen.KernelIdeal.Skeleton
import proofs.«156989_g36386962932021_cont_8to1_b_175_3_alg».proof.Proof.Gen.KernelIdeal.Launch
import proofs.«156989_g36386962932021_cont_8to1_b_175_3_alg».proof.Proof.Gen.KernelIdeal.Points
import proofs.«156989_g36386962932021_cont_8to1_b_175_3_alg».proof.Proof.Gen.KernelIdeal.Frame
import proofs.«156989_g36386962932021_cont_8to1_b_175_3_alg».proof.Proof.Gen.ReferenceIdeal
import proofs.«156989_g36386962932021_cont_8to1_b_175_3_alg».proof.Proof.Gen.ReferenceIdeal.Run
import proofs.«156989_g36386962932021_cont_8to1_b_175_3_alg».proof.Proof.Gen.ReferenceIdeal.Read
import proofs.«156989_g36386962932021_cont_8to1_b_175_3_alg».proof.Proof.KernelRun
import proofs.«156989_g36386962932021_cont_8to1_b_175_3_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its argument unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories agreeing on the argument both programs end with the result array at the one-hot
    encoding of that argument, and the argument unchanged. -/
theorem algebraic : Cert.algebraic_KernelIdeal_ReferenceIdeal := by
  intro m ρ m' ρ' _ hagree
  refine ⟨fun c => Cert.OneHot.encode (F := Ideal) (m ((c.tc : Thread Cert.KernelIdeal.nD Cert.KernelIdeal.τ).loc Cert.KernelIdeal.main_arg0)),
    Cert.KernelIdeal.OneHotValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.result_eq, hagree c]

theorem claim : Cert.Claim :=
  ⟨Cert.Kernel.Gen.facts, Cert.KernelIdeal.Gen.facts, Cert.ReferenceIdeal.Gen.facts,
    frame_kernel, frame_kernel_ideal, frame_reference_ideal, preserves, algebraic⟩

end Cert.Proof

end
